-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S8x1024 : Shape := ⟨2, ![8, 1024]⟩
abbrev S1024x8 : Shape := ⟨2, ![1024, 8]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S8x1024 : S_.BroadcastsInDim S8x1024 (![] : Fin 0 → Fin S8x1024.rank)
  reducesTo_S8x1024_S_d0_1 : S8x1024.ReducesTo [0, 1] S_
  bcast_S_S1024x8 : S_.BroadcastsInDim S1024x8 (![] : Fin 0 → Fin S1024x8.rank)
  reducesTo_S1024x8_S_d0_1 : S1024x8.ReducesTo [0, 1] S_

variable [Facts]

def fn_part1 {F : FTy → Type} [FloatOps F] (main_arg4 : FVec F S1024x8 .f32) (main_v13 : IVec S_ 1) (main_v16 : IVec S8x1024 1) : IVec S_ 1 :=
  let main_c_5 : IVec S_ 1 := constantI S_ 1 1#1
  let main_v17 : IVec S_ 1 := (fun x v => Host.reduce IntOp.andi x v reducesTo_S8x1024_S_d0_1 h_S_) main_v16 main_c_5
  let main_v18 : IVec S_ 1 := andi main_v13 main_v17
  let main_v19 : FVec F S1024x8 .f32 := Host.absf main_arg4
  let main_cst_6 : FVec F S_ .f32 := constant S_ .f32 0x7F800000#32
  let main_v20 : FVec F S1024x8 .f32 := broadcastInDim S1024x8 ![] bcast_S_S1024x8 main_cst_6
  let main_v21 : IVec S1024x8 1 := cmpf .olt main_v19 main_v20
  let main_c_7 : IVec S_ 1 := constantI S_ 1 1#1
  let main_v22 : IVec S_ 1 := (fun x v => Host.reduce IntOp.andi x v reducesTo_S1024x8_S_d0_1 h_S_) main_v21 main_c_7
  let main_v23 : IVec S_ 1 := andi main_v18 main_v22
  main_v23

def fn {F : FTy → Type} [FloatOps F] (main_arg0 : FVec F S16384x1024 .f32) (main_arg1 : FVec F S1024x1024 .f32) (main_arg2 : FVec F S1024 .f32) (main_arg3 : FVec F S8x1024 .f32) (main_arg4 : FVec F S1024x8 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S8x1024 .f32 := Host.absf main_arg3
  let main_cst_4 : FVec F S_ .f32 := constant S_ .f32 0x7F800000#32
  let main_v15 : FVec F S8x1024 .f32 := broadcastInDim S8x1024 ![] bcast_S_S8x1024 main_cst_4
  let main_v16 : IVec S8x1024 1 := cmpf .olt main_v14 main_v15
  fn_part1 (F := F) main_arg4 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S8x1024 : Shape := ⟨2, ![8, 1024]⟩
abbrev S1024x8 : Shape := ⟨2, ![1024, 8]⟩
abbrev S_ : Shape := ⟨0, ![]⟩
abbrev S1x1024 : Shape := ⟨2, ![1, 1024]⟩

abbrev nBuf : Space → Nat
  | .hbm => 16
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S8x1024, .f32⟩
  | .hbm, ⟨4, _⟩ => ⟨S1024x8, .f32⟩
  | .hbm, ⟨5, _⟩ => ⟨S1024x1024, .f32⟩
  | .hbm, ⟨6, _⟩ => ⟨S1024x8, .f32⟩
  | .hbm, ⟨7, _⟩ => ⟨S8x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1024x1024_S1024x1024_1_0 : S1024x1024.Transposes [1, 0] S1024x1024
  transposes_S8x1024_S1024x8_1_0 : S8x1024.Transposes [1, 0] S1024x8
  transposes_S1024x8_S8x1024_1_0 : S1024x8.Transposes [1, 0] S8x1024
  bcast_S_S1024x1024 : S_.BroadcastsInDim S1024x1024 (![] : Fin 0 → Fin S1024x1024.rank)
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x8_S8x1024_S1024x1024_1_0_0_1_n_n_wf : DotDims.WF S1024x8 S8x1024 S1024x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)

variable [Facts₀]

def dot_S1024x8_S8x1024_S1024x1024_1_0_0_1_n_n : DotDims S1024x8 S8x1024 S1024x1024 where
  lhsContracting := [1]
  rhsContracting := [0]
  lhsNonContracting := [0]
  rhsNonContracting := [1]
  lhsBatch := []
  rhsBatch := []
  wf := dot_S1024x8_S8x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S8x1024 : Shape := ⟨2, ![8, 1024]⟩
abbrev S1024x8 : Shape := ⟨2, ![1024, 8]⟩
abbrev S1x1024 : Shape := ⟨2, ![1, 1024]⟩
abbrev S16384x8 : Shape := ⟨2, ![16384, 8]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S8x1024, .f32⟩
  | .hbm, ⟨4, _⟩ => ⟨S1024x8, .f32⟩
  | .hbm, ⟨5, _⟩ => ⟨S16384x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S16384x8, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x1024_S1024x1024_S16384x1024_1_1_0_0_n_n_wf : DotDims.WF S16384x1024 S1024x1024 S16384x1024 [1] [1] [0] [0] [] []
  dot_S16384x1024_S8x1024_S16384x8_1_1_0_0_n_n_wf : DotDims.WF S16384x1024 S8x1024 S16384x8 [1] [1] [0] [0] [] []
  dot_S16384x8_S1024x8_S16384x1024_1_1_0_0_n_n_wf : DotDims.WF S16384x8 S1024x8 S16384x1024 [1] [1] [0] [0] [] []

variable [Facts₀]

def dot_S16384x1024_S1024x1024_S16384x1024_1_1_0_0_n_n : DotDims S16384x1024 S1024x1024 S16384x1024 where
  lhsContracting := [1]
  rhsContracting := [1]
  lhsNonContracting := [0]
  rhsNonContracting := [0]
  lhsBatch := []
  rhsBatch := []
  wf := dot_S16384x1024_S1024x1024_S16384x1024_1_1_0_0_n_n_wf
def dot_S16384x1024_S8x1024_S16384x8_1_1_0_0_n_n : DotDims S16384x1024 S8x1024 S16384x8 where
  lhsContracting := [1]
  rhsContracting := [1]
  lhsNonContracting := [0]
  rhsNonContracting := [0]
  lhsBatch := []
  rhsBatch := []
  wf := dot_S16384x1024_S8x1024_S16384x8_1_1_0_0_n_n_wf
def dot_S16384x8_S1024x8_S16384x1024_1_1_0_0_n_n : DotDims S16384x8 S1024x8 S16384x1024 where
  lhsContracting := [1]
  rhsContracting := [1]
  lhsNonContracting := [0]
  rhsNonContracting := [0]
  lhsBatch := []
  rhsBatch := []
  wf := dot_S16384x8_S1024x8_S16384x1024_1_1_0_0_n_n_wf

class Facts : Prop extends Facts₀ where

variable [Facts]
-- ==== Proof.Algebra.lean ====
/-
  The mathematics of a dense layer with a rank-8 adapter, stated with no program in sight.

  For x : [16384, 1024], W : [1024, 1024], bias : [1024], A : [8, 1024], B : [1024, 8] and the scale s = 4, the
  layer's output at (n, o) can be arranged two ways:

    adapter applied afterwards :  (∑ d, x[n,d] · W[o,d] + bias[o]) + s · ∑ r, (∑ d, x[n,d] · A[r,d]) · B[o,r]
    adapter folded into W      :  (∑ d, x[n,d] · (W[o,d] + s · ∑ r, A[r,d] · B[o,r])) + bias[o]

  Over the reals these agree: distribute x[n,d] over the bracket, split the sum over d, pull s out and exchange the
  two finite sums. On the extended reals distributivity fails at the infinities, so the law is stated for arrays all of
  whose entries are real (the bias may be anything: it is only ever added, and addition is commutative and
  associative on every extended real).
-/
import Idealize.ShloMosaic.PureOps.Ideal
import Idealize.ShloMosaic.Lib.ValueIdx

noncomputable section

open scoped BigOperators

namespace Cert.Adapter

open Idealize.ShloMosaic Idealize.ShloMosaic.ValueIdx

/-! ## Finite sums of reals inside the extended reals -/

/-- A finite sum of reals, read as an extended real, is the sum of its terms read as extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The law, at one output element -/

/-- Over the reals: x·(w + s·(a·b)) summed over d is x·w summed over d plus s times the sum over r of (x·a summed over d)·b.
    Distribute, split the sum, then exchange the order of the two finite sums. -/
theorem fold_real {D R : Type*} [Fintype D] [Fintype R] (x w : D → ℝ) (a : R → D → ℝ) (b : R → ℝ) (s : ℝ) :
    ∑ d, x d * (w d + s * ∑ r, a r d * b r) = ∑ d, x d * w d + s * ∑ r, (∑ d, x d * a r d) * b r := by
  simp only [mul_add, Finset.sum_add_distrib, Finset.mul_sum, Finset.sum_mul]
  congr 1
  rw [Finset.sum_comm]
  refine Finset.sum_congr rfl fun r _ => Finset.sum_congr rfl fun d _ => ?_
  ring

/-- The same law for extended reals that are real, with any extended real β added on: the real sums are pushed
    inside one coercion on each side, β is moved to the end, and the real law closes it. -/
theorem fold_ereal {D R : Type*} [Fintype D] [Fintype R] (x w : D → ℝ) (a : R → D → ℝ) (b : R → ℝ) (s : ℝ) (β : EReal) :
    (∑ d, (x d : EReal) * ((w d : EReal) + (s : EReal) * ∑ r, (a r d : EReal) * (b r : EReal))) + β
      = ((∑ d, (x d : EReal) * (w d : EReal)) + β)
          + (s : EReal) * ∑ r, (∑ d, (x d : EReal) * (a r d : EReal)) * (b r : EReal) := by
  simp only [← EReal.coe_mul, ← coe_sum, ← EReal.coe_add]
  rw [add_right_comm, ← EReal.coe_add, fold_real]

/-! ## The two arrangements over the layer's arrays -/

abbrev Sx : Shape := ⟨2, ![16384, 1024]⟩
abbrev Sw : Shape := ⟨2, ![1024, 1024]⟩
abbrev Sbias : Shape := ⟨1, ![1024]⟩
abbrev Sa : Shape := ⟨2, ![8, 1024]⟩
abbrev Sb : Shape := ⟨2, ![1024, 8]⟩

/-- The adapter's scale, alpha / r = 32 / 8, as the float word both programs spell. -/
abbrev scale : EReal := Ideal.ofBits .f32 0x40800000#32

/-- That word denotes the real 4. -/
theorem scale_eq : scale = ((4 : ℝ) : EReal) := by
  simp [Ideal.ofBits, Ideal.ieee, -EReal.coe_mul]; norm_num

variable (x : Sx.Idx → EReal) (w : Sw.Idx → EReal) (bias : Sbias.Idx → EReal) (a : Sa.Idx → EReal) (b : Sb.Idx → EReal)

/-- Row n, column o of the output with the adapter applied AFTER the dense product. -/
def afterAt (n : Fin 16384) (o : Fin 1024) : EReal :=
  ((∑ d : Fin 1024, x (ix2 n d) * w (ix2 o d)) + bias (ix1 o))
    + scale * ∑ r : Fin 8, (∑ d : Fin 1024, x (ix2 n d) * a (ix2 r d)) * b (ix2 o r)

/-- Entry (d, o) of the folded weight: W transposed plus the scaled product of the adapter's two factors. -/
def foldedWeightAt (d o : Fin 1024) : EReal :=
  w (ix2 o d) + scale * ∑ r : Fin 8, a (ix2 r d) * b (ix2 o r)

/-- Row n, column o of the output with the adapter FOLDED into the weight. -/
def foldedAt (n : Fin 16384) (o : Fin 1024) : EReal :=
  (∑ d : Fin 1024, x (ix2 n d) * foldedWeightAt w a b d o) + bias (ix1 o)

/-- The whole output array, adapter applied afterwards. -/
def after : Sx.Idx → EReal := fun i => afterAt x w bias a b (i 0) (i 1)

/-- The whole output array, adapter folded into the weight. -/
def folded : Sx.Idx → EReal := fun i => foldedAt x w bias a b (i 0) (i 1)

/-- When every entry of x, W, A and B is real the two arrangements are one array. -/
theorem folded_eq_after (hx : ∀ j, ∃ r : ℝ, x j = r) (hw : ∀ j, ∃ r : ℝ, w j = r)
    (ha : ∀ j, ∃ r : ℝ, a j = r) (hb : ∀ j, ∃ r : ℝ, b j = r) :
    folded x w bias a b = after x w bias a b := by
  choose x' hx' using hx
  choose w' hw' using hw
  choose a' ha' using ha
  choose b' hb' using hb
  funext i
  unfold folded after foldedAt afterAt foldedWeightAt
  simp only [hx', hw', ha', hb', scale_eq]
  exact fold_ereal (fun d => x' (ix2 (i 0) d)) (fun d => w' (ix2 (i 1) d)) (fun r d => a' (ix2 r d))
    (fun r => b' (ix2 (i 1) r)) 4 (bias (ix1 (i 1)))

end Cert.Adapter

end
-- ==== Proof.Finite.lean ====
/-
  What the precondition says of the five argument arrays: every entry is a real number.

  The precondition is the conjunction, array by array, of "every entry's absolute value is below +infinity". An extended
  real whose absolute value max(v, -v) is below the top element is neither infinity, hence a real.
-/
import proofs.«164079_j53008486367361_2_alg».proof.Pre_finite_inputs
import proofs.«164079_j53008486367361_2_alg».proof.Proof.Algebra
import Idealize.ShloMosaic.Lib.ReduceAll
import Idealize.ShloMosaic.Lib.ValueIdx
import Idealize.ShloMosaic.PureOps.Ideal

noncomputable section

namespace Cert.Adapter

open Idealize.ShloMosaic Idealize.ShloMosaic.ValueIdx

/-- The float word with all exponent bits set and no fraction denotes +infinity. -/
theorem inf_word : Ideal.ofBits .f32 0x7F800000#32 = ⊤ := by
  simp [Ideal.ofBits, Ideal.ieee]

/-- An extended real whose absolute value compares below +infinity is a real: at either infinity the absolute value is
    the top element, which is not below itself. -/
theorem real_of_abs_lt_inf (v : EReal)
    (h : FloatOps.cmpf (F := Ideal) (φ := .f32) .olt (FloatOps.hostAbsf (F := Ideal) (φ := .f32) v)
      (FloatOps.ofBits (F := Ideal) .f32 0x7F800000#32) = 1#1) : ∃ r : ℝ, v = r := by
  have h' : Ideal.cmp .olt (max v (-v)) (Ideal.ofBits .f32 0x7F800000#32) = 1#1 := h
  rw [inf_word] at h'
  induction v using EReal.rec with
  | bot => simp [Ideal.cmp] at h'
  | top => simp [Ideal.cmp] at h'
  | coe r => exact ⟨r, rfl⟩

/-- The scalar shape has one index. -/
instance : Subsingleton Cert.Pre_finite_inputs.S_.Idx := ⟨fun a b => funext fun d => d.elim0⟩

variable [Cert.Pre_finite_inputs.Facts]

/-- Under the precondition every entry of x, W, A and B is a real. (The bias is finite too, but the law that joins the two
    arrangements never needs it.) The conjunction is split array by array; each "all entries" reduction that came out
    true had a true comparison at every entry. -/
theorem reals_of_pre (x : Sx.Idx → EReal) (w : Sw.Idx → EReal) (bias : Sbias.Idx → EReal) (a : Sa.Idx → EReal) (b : Sb.Idx → EReal)
    (h : Cert.Pre_finite_inputs.fn (F := Ideal) x w bias a b = fun _ => 1#1) :
    (∀ j, ∃ r : ℝ, x j = r) ∧ (∀ j, ∃ r : ℝ, w j = r) ∧ (∀ j, ∃ r : ℝ, a j = r) ∧ (∀ j, ∃ r : ℝ, b j = r) := by
  have h0 := congrFun h ix0
  simp only [Cert.Pre_finite_inputs.fn, Cert.Pre_finite_inputs.fn_part1, andi, IntOp.andi_eq_one] at h0
  obtain ⟨⟨⟨⟨hx, hw⟩, _⟩, ha⟩, hb⟩ := h0
  exact ⟨fun j => real_of_abs_lt_inf _ (Host.reduce_andi_all _ _ _ _ _ hx j),
    fun j => real_of_abs_lt_inf _ (Host.reduce_andi_all _ _ _ _ _ hw j),
    fun j => real_of_abs_lt_inf _ (Host.reduce_andi_all _ _ _ _ _ ha j),
    fun j => real_of_abs_lt_inf _ (Host.reduce_andi_all _ _ _ _ _ hb j)⟩

end Cert.Adapter

end
-- ==== Proof.Reference.lean ====
/-
  The reference computes the arrangement with the adapter applied afterwards.

  Its ten operations, read at an output index (n, o): the dense product contracts x's row n with W's row o; the bias is
  broadcast along rows, so it is read at o; the first adapter product contracts x's row n with A's row r, the second
  contracts that row of eight with B's row o; the scale multiplies the adapter's term; the two terms are added.
-/
import proofs.«164079_j53008486367361_2_alg».proof.Proof.Gen.ReferenceIdeal.Read
import proofs.«164079_j53008486367361_2_alg».proof.Proof.Algebra

noncomputable section

namespace Cert.Adapter.Reference

open Cert.ReferenceIdeal Cert.ReferenceIdeal.Read Idealize.ShloMosaic Idealize.ShloMosaic.ValueIdx

/-! ## Which operand entries each operation reads at output index (n, o) -/

/-- The dense product reads x at (n, k) … -/
theorem dense_lhs (n : Fin 16384) (o k : Fin 1024) : lidx_main_v0 (ix2 n o) k = ix2 n k :=
  funext fun a => Fin.ext (by match a with | ⟨0, _⟩ => rfl | ⟨1, _⟩ => rfl)
/-- … and W at (o, k). -/
theorem dense_rhs (n : Fin 16384) (o k : Fin 1024) : ridx_main_v0 (ix2 n o) k = ix2 o k :=
  funext fun a => Fin.ext (by match a with | ⟨0, _⟩ => rfl | ⟨1, _⟩ => rfl)
/-- The bias, broadcast to a row and then along the rows, is read at o. -/
theorem bias_idx (n : Fin 16384) (o : Fin 1024) : idx_main_v1 (idx_main_v2 (ix2 n o)) = ix1 o :=
  funext fun a => Fin.ext (by match a with | ⟨0, _⟩ => rfl)
/-- The second adapter product reads the first one's result at (n, r) … -/
theorem up_lhs (n : Fin 16384) (o : Fin 1024) (r : Fin 8) : lidx_main_v5 (ix2 n o) r = ix2 n r :=
  funext fun a => Fin.ext (by match a with | ⟨0, _⟩ => rfl | ⟨1, _⟩ => rfl)
/-- … and B at (o, r). -/
theorem up_rhs (n : Fin 16384) (o : Fin 1024) (r : Fin 8) : ridx_main_v5 (ix2 n o) r = ix2 o r :=
  funext fun a => Fin.ext (by match a with | ⟨0, _⟩ => rfl | ⟨1, _⟩ => rfl)
/-- The first adapter product reads x at (n, d) … -/
theorem down_lhs (n : Fin 16384) (r : Fin 8) (d : Fin 1024) : lidx_main_v4 (ix2 n r) d = ix2 n d :=
  funext fun a => Fin.ext (by match a with | ⟨0, _⟩ => rfl | ⟨1, _⟩ => rfl)
/-- … and A at (r, d). -/
theorem down_rhs (n : Fin 16384) (r : Fin 8) (d : Fin 1024) : ridx_main_v4 (ix2 n r) d = ix2 r d :=
  funext fun a => Fin.ext (by match a with | ⟨0, _⟩ => rfl | ⟨1, _⟩ => rfl)

/-! ## The reference's result -/

/-- The reference's last stage, as a function of the five arguments, is the output array with the adapter applied
    afterwards. -/
theorem result_eq (x : Sx.Idx → EReal) (w : Sw.Idx → EReal) (bias : Sbias.Idx → EReal) (a : Sa.Idx → EReal) (b : Sb.Idx → EReal) :
    val_main_v8 (F := Ideal) x w bias a b = Cert.Adapter.after x w bias a b := by
  funext i
  obtain ⟨n, o, rfl⟩ : ∃ (n : Fin 16384) (o : Fin 1024), i = ix2 n o := ⟨i 0, i 1, eq_ix2 i⟩
  rw [val_main_v8_apply, val_main_v3_apply, val_main_v7_apply, val_main_v0_apply, val_main_v2_apply, val_main_v1_apply,
    val_main_v6_apply, val_main_cst_apply, val_main_v5_apply]
  simp only [val_main_v4_apply, dense_lhs, dense_rhs, bias_idx, up_lhs, up_rhs, down_lhs, down_rhs]
  rfl

end Cert.Adapter.Reference

end
-- ==== Proof.FoldedWeight.lean ====
/-
  What the kernel's region finds in the two buffers the host operations before it wrote.

  The folded weight: entry (d, o) is W[o,d] + 4 · ∑ r, A[r,d] · B[o,r] — W transposed, plus the scale times the product
  of A transposed (1024 × 8) with B transposed (8 × 1024); the final change of float format is the identity on extended
  reals. The bias row: the bias reshaped to 1 × 1024, so entry (0, o) is bias[o].
-/
import proofs.«164079_j53008486367361_2_alg».proof.Proof.Gen.KernelIdeal.Frame
import proofs.«164079_j53008486367361_2_alg».proof.Proof.Algebra
import Idealize.ShloMosaic.Lib.StableHlo.Run
import Idealize.ShloMosaic.Lib.Pipeline.Value
import Idealize.ShloMosaic.Lib.ValueIdx
import Idealize.ShloMosaic.PureOps.Ideal.Laws

noncomputable section

namespace Cert.Adapter.Kernel

open Cert.KernelIdeal Cert.KernelIdeal.Gen Idealize.ShloMosaic Idealize.ShloMosaic.TcCoe Idealize.SL.Sem
open Idealize.ShloMosaic.ValueIdx Idealize.ShloMosaic.StableHlo

/-! ## A transpose of a matrix, and the product of the adapter's factors, read at an index -/

/-- A matrix transposed, read at (p, q), is the matrix at (q, p). -/
theorem transpose_at {n0 n1 : Nat} (x : (⟨2, ![n0, n1]⟩ : Shape).Idx → EReal)
    (h : (⟨2, ![n0, n1]⟩ : Shape).Transposes [1, 0] ⟨2, ![n1, n0]⟩) (p : Fin n1) (q : Fin n0) :
    transpose ⟨2, ![n1, n0]⟩ [1, 0] x h (ix2 p q) = x (ix2 q p) :=
  transpose_apply [1, 0] x h (ix2 p q) (ix2 q p) (fun b => match b with | ⟨0, _⟩ => rfl | ⟨1, _⟩ => rfl)

local notation "Dab" => dot_S1024x8_S8x1024_S1024x1024_1_0_0_1_n_n

/-- The product's left operand is read on its row axis at the output's row … -/
theorem ab_lhs_row (i : S1024x1024.Idx) (q : (Dab).contr.Idx) : ((Dab).lhsIdx i q 0).val = (i 0).val := by
  unfold DotDims.lhsIdx
  rw [dif_neg (show ¬(0 : Fin S1024x8.rank) ∈ (Dab).lhsBatch by decide), dif_pos (show (0 : Fin S1024x8.rank) ∈ (Dab).lhsNonContracting by decide)]
  rfl
/-- … and its right operand on its column axis at the output's column. -/
theorem ab_rhs_col (i : S1024x1024.Idx) (q : (Dab).contr.Idx) : ((Dab).rhsIdx i q 1).val = (i 1).val := by
  unfold DotDims.rhsIdx
  rw [dif_neg (show ¬(1 : Fin S8x1024.rank) ∈ (Dab).rhsBatch by decide), dif_pos (show (1 : Fin S8x1024.rank) ∈ (Dab).rhsNonContracting by decide)]
  rfl

/-- The 1024 × 8 by 8 × 1024 product on the extended reals, read at (d, o): the sum over the eight shared coordinates. -/
theorem ab_product_at (l : S1024x8.Idx → EReal) (r : S8x1024.Idx → EReal) (d o : Fin 1024) :
    Host.dotGeneral (F := Ideal) (φ₁ := .f32) (φ₂ := .f32) Dab none l r (ix2 d o) = ∑ k : Fin 8, l (ix2 d k) * r (ix2 k o) := by
  simp only [Host.dotGeneral]
  rw [Ideal.dotGeneral_apply, ← Equiv.sum_comp (contrEquiv1 Dab 8 rfl rfl).symm]
  refine Finset.sum_congr rfl fun k _ => ?_
  have hk := contrEquiv1_symm_val Dab 8 rfl rfl k
  have el : (Dab).lhsIdx (ix2 d o) ((contrEquiv1 Dab 8 rfl rfl).symm k) = ix2 d k := funext fun a => Fin.ext (by
    match a with
    | ⟨0, _⟩ => exact ab_lhs_row _ _
    | ⟨1, _⟩ => exact ((Dab).lhsIdx_val_of_single rfl _ _).trans hk)
  have er : (Dab).rhsIdx (ix2 d o) ((contrEquiv1 Dab 8 rfl rfl).symm k) = ix2 k o := funext fun a => Fin.ext (by
    match a with
    | ⟨0, _⟩ => exact ((Dab).rhsIdx_val_of_single rfl _ _).trans hk
    | ⟨1, _⟩ => exact ab_rhs_col _ _)
  rw [el, er]

/-! ## The two buffers as the region finds them -/

variable (m : (ℓ : Loc nD τ sig) → Buf (Elt Ideal) ℓ)

/-- The five argument arrays on core `c` as launched, each at its own shape: x, W, the bias, A and B. -/
abbrev argX (c : Dev nD) : FVec Ideal S16384x1024 .f32 := m ((c : Thread nD τ).loc main_arg0)
abbrev argW (c : Dev nD) : FVec Ideal S1024x1024 .f32 := m ((c : Thread nD τ).loc main_arg1)
abbrev argBias (c : Dev nD) : FVec Ideal S1024 .f32 := m ((c : Thread nD τ).loc main_arg2)
abbrev argA (c : Dev nD) : FVec Ideal S8x1024 .f32 := m ((c : Thread nD τ).loc main_arg3)
abbrev argB (c : Dev nD) : FVec Ideal S1024x8 .f32 := m ((c : Thread nD τ).loc main_arg4)

/-- The folded-weight buffer holds the host operations' composed term of W, A and B. -/
theorem weight_term (c : Dev nD) : (V m c main_v7 : S1024x1024.Idx → EReal) =
    truncf .bf16
      (addf (transpose S1024x1024 [1, 0] (argW m c) transposes_S1024x1024_S1024x1024_1_0)
        (mulf (broadcastInDim S1024x1024 ![] bcast_S_S1024x1024 (constant (F := Ideal) S_ .f32 0x40800000#32))
          (Host.dotGeneral Dab none
            (transpose S1024x8 [1, 0] (argA m c) transposes_S8x1024_S1024x8_1_0)
            (transpose S8x1024 [1, 0] (argB m c) transposes_S1024x8_S8x1024_1_0))))
      bitsLt_bf16_f32 := by
  dsimp only [V, hostOps0]
  after_results

/-- Entry (d, o) of that buffer is the folded weight of the specification. -/
theorem weight_at (c : Dev nD) (d o : Fin 1024) :
    (V m c main_v7 : S1024x1024.Idx → EReal) (ix2 d o)
      = foldedWeightAt (argW m c) (argA m c) (argB m c) d o := by
  rw [weight_term]
  show transpose S1024x1024 [1, 0] (argW m c) transposes_S1024x1024_S1024x1024_1_0 (ix2 d o)
      + scale * Host.dotGeneral (F := Ideal) Dab none
          (transpose S1024x8 [1, 0] (argA m c) transposes_S8x1024_S1024x8_1_0)
          (transpose S8x1024 [1, 0] (argB m c) transposes_S1024x8_S8x1024_1_0) (ix2 d o) = _
  rw [ab_product_at, transpose_at]
  unfold foldedWeightAt
  refine congrArg (_ + scale * ·) (Finset.sum_congr rfl fun k _ => ?_)
  rw [transpose_at, transpose_at]

/-- The bias-row buffer holds the bias reshaped to one row. -/
theorem bias_term (c : Dev nD) : (V m c main_v8 : S1x1024.Idx → EReal) =
    shapeCast S1x1024 (argBias m c) shapeCasts_S1024_S1x1024 := by
  dsimp only [V, hostOps0]
  after_results
  rfl

/-- Entry (0, o) of that buffer is bias[o]: the two have the same row-major position. -/
theorem bias_at (c : Dev nD) (o : Fin 1024) :
    (V m c main_v8 : S1x1024.Idx → EReal) (ix2 (0 : Fin 1) o) = argBias m c (ix1 o) := by
  rw [bias_term]
  refine shapeCast_apply _ shapeCasts_S1024_S1x1024 (ix2 (0 : Fin 1) o) (ix1 o) ?_
  rw [Shape.rowMajor_val_one, Shape.rowMajor_val_two]
  show o.val = 0 * 1024 + o.val
  omega

end Cert.Adapter.Kernel

end
-- ==== Proof.Body.lean ====
/-
  One grid point's arithmetic, read at an entry of its output block.

  The body multiplies a 1024 × 1024 block of x (rounded to the narrower float format: the identity on extended reals) by
  the whole folded weight into a zero accumulator and adds the bias row broadcast down the rows. So entry (p, q) of the
  block is ∑ k, xblock[p,k] · weight[k,q] + biasrow[0,q].
-/
import proofs.«164079_j53008486367361_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.Adapter.Kernel

open Cert.KernelIdeal Cert.KernelIdeal.Gen Idealize.ShloMosaic Idealize.ShloMosaic.ValueIdx

local notation "Dxw" => dot_S1024x1024_S1024x1024_S1024x1024_1_0_0_1_n_n

/-- The matrix product's left operand is read on its row axis at the output's row … -/
theorem xw_lhs_row (i : S1024x1024.Idx) (q : (Dxw).contr.Idx) : ((Dxw).lhsIdx i q 0).val = (i 0).val := by
  unfold DotDims.lhsIdx
  rw [dif_neg (show ¬(0 : Fin S1024x1024.rank) ∈ (Dxw).lhsBatch by decide), dif_pos (show (0 : Fin S1024x1024.rank) ∈ (Dxw).lhsNonContracting by decide)]
  rfl
/-- … and its right operand on its column axis at the output's column. -/
theorem xw_rhs_col (i : S1024x1024.Idx) (q : (Dxw).contr.Idx) : ((Dxw).rhsIdx i q 1).val = (i 1).val := by
  unfold DotDims.rhsIdx
  rw [dif_neg (show ¬(1 : Fin S1024x1024.rank) ∈ (Dxw).rhsBatch by decide), dif_pos (show (1 : Fin S1024x1024.rank) ∈ (Dxw).rhsNonContracting by decide)]
  rfl

/-- The matrix unit's product into a zero accumulator, read at (p, q): the sum over the 1024 shared coordinates. -/
theorem xw_product_at (l : FVec Ideal S1024x1024 .bf16) (r : FVec Ideal S1024x1024 .bf16) (p q : Fin 1024) :
    matmul Dxw none l r (constant S1024x1024 .f32 0x00000000#32) (ix2 p q) = ∑ k : Fin 1024, l (ix2 p k) * r (ix2 k q) := by
  refine (Ideal.matmul_constant_zero_apply Dxw none l r (ix2 p q)).trans ?_
  rw [← Equiv.sum_comp (contrEquiv1 Dxw 1024 rfl rfl).symm]
  refine Finset.sum_congr rfl fun k _ => ?_
  have hk := contrEquiv1_symm_val Dxw 1024 rfl rfl k
  have el : (Dxw).lhsIdx (ix2 p q) ((contrEquiv1 Dxw 1024 rfl rfl).symm k) = ix2 p k := funext fun a => Fin.ext (by
    match a with
    | ⟨0, _⟩ => exact xw_lhs_row _ _
    | ⟨1, _⟩ => exact ((Dxw).lhsIdx_val_of_single rfl _ _).trans hk)
  have er : (Dxw).rhsIdx (ix2 p q) ((contrEquiv1 Dxw 1024 rfl rfl).symm k) = ix2 k q := funext fun a => Fin.ext (by
    match a with
    | ⟨0, _⟩ => exact ((Dxw).rhsIdx_val_of_single rfl _ _).trans hk
    | ⟨1, _⟩ => exact xw_rhs_col _ _)
  rw [el, er]

/-- A 1 × 1024 row broadcast down 1024 rows, read at (p, q), is the row at (0, q). -/
theorem row_broadcast_at (v : S1x1024.Idx → EReal) (p q : Fin 1024) :
    broadcastTo S1024x1024 v broadcasts_S1x1024_S1024x1024 (ix2 p q) = v (ix2 (0 : Fin 1) q) :=
  broadcastTo_apply v broadcasts_S1x1024_S1024x1024 (ix2 p q) (ix2 (0 : Fin 1) q) (fun a => match a with
    | ⟨0, _⟩ => by show (0 : Nat) = if (1 : Nat) = 1 then 0 else _; rw [if_pos rfl]
    | ⟨1, _⟩ => by show q.val = if (1024 : Nat) = 1 then 0 else q.val; rw [if_neg (by decide)])

/-- Entry (p, q) of what the body stores, from its three loaded blocks. -/
theorem block_at (x0 : Vec Ideal S1024x1024 .f32) (x1 : Vec Ideal S1024x1024 .bf16) (x2 : Vec Ideal S1x1024 .f32) (p q : Fin 1024) :
    k0_pay1 x0 x1 x2 (ix2 p q) = (∑ k : Fin 1024, x0 (ix2 p k) * x1 (ix2 k q)) + x2 (ix2 (0 : Fin 1) q) := by
  unfold k0_pay1
  rw [shapeCast_self, shapeCast_self]
  show matmul (F := Ideal) Dxw none (truncf .bf16 x0 bitsLt_bf16_f32) x1 (constant S1024x1024 .f32 0x00000000#32) (ix2 p q)
      + broadcastTo S1024x1024 x2 broadcasts_S1x1024_S1024x1024 (ix2 p q) = _
  rw [xw_product_at, row_broadcast_at]
  rfl

end Cert.Adapter.Kernel

end
-- ==== Proof.Output.lean ====
/-
  From the sixteen row blocks to the whole output array.

  Grid point t reads rows 1024·t … 1024·t + 1023 of x, the whole folded weight and the whole bias row, and writes back
  rows 1024·t … 1024·t + 1023 of the output. Entry (p, q) of what it writes is ∑ k, x[1024·t + p, k] · weight[k, q] + bias[q]:
  entry (1024·t + p, q) of the output with the adapter folded into the weight. Every row lies in exactly the block
  ⌊row / 1024⌋, so the sixteen blocks cover the array and the array ends holding that function.
-/
import proofs.«164079_j53008486367361_2_alg».proof.Proof.Gen.KernelIdeal.Value
import proofs.«164079_j53008486367361_2_alg».proof.Proof.FoldedWeight
import proofs.«164079_j53008486367361_2_alg».proof.Proof.Body

noncomputable section

namespace Cert.Adapter.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The grid has sixteen points. -/
theorem points : cfg0.N = 16 := N_0

/-- Where each window's block sits at point t: x's and the output's at block row t, the folded weight's and the bias
    row's at the origin. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The three input blocks, entry by entry -/

/-- x's block at point t, at (p, k), is x at row 1024·t + p, column k. -/
theorem x_block (c : Dev nD) (t : Fin cfg0.N) (p k : Fin 1024) (n : Fin 16384) (hn : n.val = 1024 * t.val + p.val) :
    (iblk m c 0 t : Vec Ideal S1024x1024 .f32) (ix2 p k) = argX m c (ix2 n k) := by
  obtain ⟨e0, e1, -⟩ := block_indices t
  unfold iblk
  rw [View.read_apply]
  show V m c main_arg0 _ = argX m c _
  rw [V_main_arg0]
  refine congrArg (argX m c) (funext fun a => Fin.ext ?_)
  match a with
  | ⟨0, _⟩ => show win0_0.index t 0 * 1024 + 1 * p.val = n.val; rw [e0, hn]; omega
  | ⟨1, _⟩ => show win0_0.index t 1 * 1024 + 1 * k.val = k.val; rw [e1]; omega

/-- The folded weight's block at any point is the whole buffer. -/
theorem weight_block (c : Dev nD) (t : Fin cfg0.N) (k q : Fin 1024) :
    (iblk m c 1 t : Vec Ideal S1024x1024 .bf16) (ix2 k q) = (V m c main_v7 : S1024x1024.Idx → EReal) (ix2 k q) := by
  obtain ⟨-, -, e0, e1, -⟩ := block_indices t
  unfold iblk
  rw [View.read_apply]
  show V m c main_v7 _ = V m c main_v7 _
  refine congrArg (V m c main_v7) (funext fun a => Fin.ext ?_)
  match a with
  | ⟨0, _⟩ => show win0_1.index t 0 * 1024 + 1 * k.val = k.val; rw [e0]; omega
  | ⟨1, _⟩ => show win0_1.index t 1 * 1024 + 1 * q.val = q.val; rw [e1]; omega

/-- The bias row's block at any point is the whole row. -/
theorem bias_block (c : Dev nD) (t : Fin cfg0.N) (q : Fin 1024) :
    (iblk m c 2 t : Vec Ideal S1x1024 .f32) (ix2 (0 : Fin 1) q) = (V m c main_v8 : S1x1024.Idx → EReal) (ix2 (0 : Fin 1) q) := by
  obtain ⟨-, -, -, -, e0, e1, -⟩ := block_indices t
  unfold iblk
  rw [View.read_apply]
  show V m c main_v8 _ = V m c main_v8 _
  refine congrArg (V m c main_v8) (funext fun a => Fin.ext ?_)
  match a with
  | ⟨0, _⟩ => show win0_2.index t 0 * 1 + 1 * 0 = 0; rw [e0]
  | ⟨1, _⟩ => show win0_2.index t 1 * 1024 + 1 * q.val = q.val; rw [e1]; omega

/-! ## What a point writes back, the cover, and the array -/

/-- The output array: the layer's output with the adapter folded into the weight, of the five arguments as launched. -/
abbrev result (c : Dev nD) : Buf (Elt Ideal) ((c : Thread nD τ).loc main_v9) :=
  Cert.Adapter.folded (argX m c) (argW m c) (argBias m c) (argA m c) (argB m c)

/-- What point t writes back is block t of that array. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero zero_offsets]
  simp only [View.ld_unit_zero (S := S1024x1024) zero_offsets, View.ld_unit_zero (S := S1x1024) zero_offsets]
  obtain ⟨-, -, -, -, -, -, e0, e1⟩ := block_indices t
  have ht : t.val < 16 := lt_of_lt_of_eq t.isLt points
  funext y
  have hp : (y 0).val < 1024 := (y 0).isLt
  have hq : (y 1).val < 1024 := (y 1).isLt
  have hx : (cfg0.win 3).xinj (grid0.coords t) y = ix2 (⟨(y 0).val, hp⟩ : Fin 1024) (⟨(y 1).val, hq⟩ : Fin 1024) :=
    funext fun a => Fin.ext (by match a with | ⟨0, _⟩ => rfl | ⟨1, _⟩ => rfl)
  have hi : ((cfg0.win 3).blk t).view.emb y
      = ix2 (⟨1024 * t.val + (y 0).val, by omega⟩ : Fin 16384) (⟨(y 1).val, hq⟩ : Fin 1024) :=
    funext fun a => Fin.ext (by
      match a with
      | ⟨0, _⟩ => show win0_3.index t 0 * 1024 + 1 * (y 0).val = 1024 * t.val + (y 0).val; rw [e0]; omega
      | ⟨1, _⟩ => show win0_3.index t 1 * 1024 + 1 * (y 1).val = (y 1).val; rw [e1]; omega)
  rw [View.read_apply, hi]
  show k0_pay1 (iblk m c 0 t) (iblk m c 1 t) (iblk m c 2 t) ((cfg0.win 3).xinj (grid0.coords t) y) = _
  rw [hx]
  refine (block_at (iblk m c 0 t) (iblk m c 1 t) (iblk m c 2 t) ⟨(y 0).val, hp⟩ ⟨(y 1).val, hq⟩).trans ?_
  show _ = Cert.Adapter.foldedAt (argX m c) (argW m c) (argBias m c) (argA m c) (argB m c)
    (⟨1024 * t.val + (y 0).val, by omega⟩ : Fin 16384) (⟨(y 1).val, hq⟩ : Fin 1024)
  unfold Cert.Adapter.foldedAt
  refine congrArg₂ (· + ·) (Finset.sum_congr rfl fun k _ => ?_) ?_
  · rw [x_block m c t ⟨(y 0).val, hp⟩ k ⟨1024 * t.val + (y 0).val, by omega⟩ rfl, weight_block m c t k ⟨(y 1).val, hq⟩, weight_at]
  · rw [bias_block m c t ⟨(y 1).val, hq⟩, bias_at]

/-- An index of the output array is in point t's block iff each coordinate is in the block's range on its axis. -/
theorem mem_block (t : Fin cfg0.N) (i : S16384x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v9).slice (win0_3.rect t)).set ↔ _
  rw [View.set_slice_whole, Rect.mem_set_unit]
  exact Iff.rfl

/-- Every index of the output array is in the block of the point ⌊row / 1024⌋, which writes back. -/
theorem cover (i : S16384x1024.Idx) :
    ∃ t : Fin cfg0.N, (cfg0.win 3).flush t = true ∧ i ∈ ((cfg0.win 3).blk t).view.set := by
  have h0 : (i 0).val < 16384 := (i 0).isLt
  have h1 : (i 1).val < 1024 := (i 1).isLt
  refine ⟨⟨(i 0).val / 1024, by rw [points]; omega⟩, flush0_3 _, ?_⟩
  obtain ⟨-, -, -, -, -, -, e0, e1⟩ := block_indices ⟨(i 0).val / 1024, by rw [points]; omega⟩
  rw [mem_block]
  intro a
  match a with
  | ⟨0, _⟩ =>
    show win0_3.index _ 0 * 1024 ≤ (i 0).val ∧ (i 0).val < win0_3.index _ 0 * 1024 + 1024
    rw [e0]; show (i 0).val / 1024 * 1024 ≤ (i 0).val ∧ (i 0).val < (i 0).val / 1024 * 1024 + 1024; omega
  | ⟨1, _⟩ =>
    show win0_3.index _ 1 * 1024 ≤ (i 1).val ∧ (i 1).val < win0_3.index _ 1 * 1024 + 1024
    rw [e1]; omega

/-- So the output array ends holding the layer's output with the adapter folded into the weight. -/
theorem final (c : Dev nD) : (dats m 0 c).arrAt 3 cfg0.N = result m c :=
  (dats m 0 c).arrAt_eq_of_cover 3 (result m c) (fun t _ => flushed_eq m c t) cover

/-- The kernel's run, read: every weakly fair execution ends with the output array at that function of the arguments
    and the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩)
    (Cert.KernelIdeal.Value.run_blocks m ρ)

end Cert.Adapter.Kernel

end
-- ==== Proof.lean ====
/-
  A dense layer with a rank-8 adapter: y = x · Wᵀ + bias + 4 · (x · Aᵀ) · Bᵀ, for x : [16384, 1024], W : [1024, 1024],
  bias : [1024], A : [8, 1024], B : [1024, 8].

  The kernel first folds the adapter into the weight, weight[d,o] = W[o,d] + 4 · ∑ r, A[r,d] · B[o,r], and then, for each of
  sixteen blocks of 1024 rows, multiplies the block of x by the folded weight and adds the bias. The reference computes the
  dense product with its bias and the two adapter products separately and adds them. On the extended reals (where every
  change of float format is the identity and every sum is exact) both are the same array once every entry of x, W, A and B
  is a real: distribute x[n,d] over the folded weight's two terms and exchange the sums over d and r. That every entry is
  real is what the precondition says.

  The modules: Algebra (the two arrangements and the law between them), Finite (the precondition read entry by entry),
  Reference (the reference computes the first arrangement), FoldedWeight (what the kernel's host operations leave in the
  weight and bias buffers), Body (one block's arithmetic at an entry), Output (the sixteen blocks make the whole array:
  the second arrangement). Below, the five claims.
-/
import proofs.«164079_j53008486367361_2_alg».proof.Defs
import proofs.«164079_j53008486367361_2_alg».proof.Proof.Gen.Kernel
import proofs.«164079_j53008486367361_2_alg».proof.Proof.Gen.Kernel.Skeleton
import proofs.«164079_j53008486367361_2_alg».proof.Proof.Gen.Kernel.Launch
import proofs.«164079_j53008486367361_2_alg».proof.Proof.Gen.Kernel.Points
import proofs.«164079_j53008486367361_2_alg».proof.Proof.Gen.Kernel.Frame
import proofs.«164079_j53008486367361_2_alg».proof.Proof.Gen.KernelIdeal
import proofs.«164079_j53008486367361_2_alg».proof.Proof.Gen.KernelIdeal.Skeleton
import proofs.«164079_j53008486367361_2_alg».proof.Proof.Gen.KernelIdeal.Launch
import proofs.«164079_j53008486367361_2_alg».proof.Proof.Gen.KernelIdeal.Points
import proofs.«164079_j53008486367361_2_alg».proof.Proof.Gen.KernelIdeal.Frame
import proofs.«164079_j53008486367361_2_alg».proof.Proof.Gen.KernelIdeal.Value
import proofs.«164079_j53008486367361_2_alg».proof.Proof.Gen.ReferenceIdeal
import proofs.«164079_j53008486367361_2_alg».proof.Proof.Gen.ReferenceIdeal.Run
import proofs.«164079_j53008486367361_2_alg».proof.Proof.Gen.ReferenceIdeal.Read
import proofs.«164079_j53008486367361_2_alg».proof.Proof.Gen.Pre_finite_inputs
import proofs.«164079_j53008486367361_2_alg».proof.Proof.Algebra
import proofs.«164079_j53008486367361_2_alg».proof.Proof.Finite
import proofs.«164079_j53008486367361_2_alg».proof.Proof.Reference
import proofs.«164079_j53008486367361_2_alg».proof.Proof.Output
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations, so there is nothing to preserve. -/
theorem preserves : Cert.preserves_Kernel_KernelIdeal := trivial

/-- From memories that agree on the five arguments, the kernel's output array ends at the arrangement with the adapter
    folded into the weight and the reference's at the arrangement with the adapter applied afterwards; the precondition
    makes every entry of x, W, A and B real, and then the two arrangements are one array. -/
theorem algebraic : Cert.algebraic_KernelIdeal_ReferenceIdeal := by
  intro m ρ m' ρ' hpre hagree
  refine ⟨fun c => Cert.Adapter.Kernel.result m c, Cert.Adapter.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2.1, (hagree c).2.2.1, (hagree c).2.2.2.1,
    (hagree c).2.2.2.2]
  obtain ⟨hx, hw, ha, hb⟩ := Cert.Adapter.reals_of_pre _ _ _ _ _ (hpre c)
  exact (Cert.Adapter.Reference.result_eq _ _ _ _ _).trans (Cert.Adapter.folded_eq_after _ _ _ _ _ hx hw ha hb).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
